-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S256x8192 : Shape := ⟨2, ![256, 8192]⟩
abbrev S256x1024 : Shape := ⟨2, ![256, 1024]⟩
abbrev S256x8x128 : Shape := ⟨3, ![256, 8, 128]⟩
abbrev S256x8 : Shape := ⟨2, ![256, 8]⟩
abbrev S256x8x1 : Shape := ⟨3, ![256, 8, 1]⟩

abbrev nBuf : Space → Nat
  | .hbm => 2
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c1024_i32 : BitVec 32 := 1024#32
  let v0 : BitVec 32 := Scalar.muli c0_i32 c1024_i32
  v0
def k0_off1 (c0_i32 : BitVec 32) : Fin 2 → Nat :=
  let c0 : Index := 0#32
  let c1024_i32 : BitVec 32 := 1024#32
  let v0 : BitVec 32 := Scalar.muli c0_i32 c1024_i32
  let v1 : BitVec 32 := v0
  let v2 : Index := Scalar.indexCast v1
  ![0, v2.toNat]
def k0_mult2 : BitVec 32 :=
  let c1_i32 : BitVec 32 := 1#32
  let c1024_i32_6 : BitVec 32 := 1024#32
  let v26 : BitVec 32 := Scalar.muli c1_i32 c1024_i32_6
  v26
def k0_mult3 : BitVec 32 :=
  let c2_i32 : BitVec 32 := 2#32
  let c1024_i32_15 : BitVec 32 := 1024#32
  let v52 : BitVec 32 := Scalar.muli c2_i32 c1024_i32_15
  v52
def k0_mult4 : BitVec 32 :=
  let c3_i32 : BitVec 32 := 3#32
  let c1024_i32_24 : BitVec 32 := 1024#32
  let v78 : BitVec 32 := Scalar.muli c3_i32 c1024_i32_24
  v78
def k0_mult5 : BitVec 32 :=
  let c4_i32 : BitVec 32 := 4#32
  let c1024_i32_33 : BitVec 32 := 1024#32
  let v104 : BitVec 32 := Scalar.muli c4_i32 c1024_i32_33
  v104
def k0_mult6 : BitVec 32 :=
  let c5_i32 : BitVec 32 := 5#32
  let c1024_i32_42 : BitVec 32 := 1024#32
  let v130 : BitVec 32 := Scalar.muli c5_i32 c1024_i32_42
  v130
def k0_mult7 : BitVec 32 :=
  let c6_i32 : BitVec 32 := 6#32
  let c1024_i32_51 : BitVec 32 := 1024#32
  let v156 : BitVec 32 := Scalar.muli c6_i32 c1024_i32_51
  v156
def k0_mult8 : BitVec 32 :=
  let c7_i32 : BitVec 32 := 7#32
  let c1024_i32_60 : BitVec 32 := 1024#32
  let v182 : BitVec 32 := Scalar.muli c7_i32 c1024_i32_60
  v182
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  h_S256x1024 : 0 < S256x1024.numel
  shapeCasts_S256x1024_S256x8x128 : S256x1024.ShapeCasts S256x8x128
  reduces_S256x8x128_S256x8 : S256x8x128.Reduces [2] S256x8
  shapeCasts_S256x8_S256x8x1 : S256x8.ShapeCasts S256x8x1
  broadcasts_S256x8x1_S256x8x128 : S256x8x1.Broadcasts S256x8x128
  shapeCasts_S256x8x128_S256x1024 : S256x8x128.ShapeCasts S256x1024
  hrank0 : 0 < grid0.rank
  k0_mult1_dvd : 128 ∣ k0_mult1.toNat
  k0_off1_inb : ∀ (r : Fin 8), ∀ a, (k0_off1 (BitVec.ofNat 32 r.val)) a + S256x1024.size a ≤ S256x8192.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S8192x8192 : Shape := ⟨2, ![8192, 8192]⟩
abbrev S8192x64x128 : Shape := ⟨3, ![8192, 64, 128]⟩
abbrev S_ : Shape := ⟨0, ![]⟩
abbrev S8192x64 : Shape := ⟨2, ![8192, 64]⟩
abbrev S8192x64x1 : Shape := ⟨3, ![8192, 64, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x64x128, .f32⟩
  | .hbm, ⟨2, _⟩ => ⟨S8192x64x128, .f32⟩
  | .hbm, ⟨3, _⟩ => ⟨S_, .f32⟩
  | .hbm, ⟨4, _⟩ => ⟨S8192x64, .f32⟩
  | .hbm, ⟨5, _⟩ => ⟨S8192x64x1, .f32⟩
  | .hbm, ⟨6, _⟩ => ⟨S_, .f32⟩
  | .hbm, ⟨7, _⟩ => ⟨S8192x64x1, .f32⟩
  | .hbm, ⟨8, _⟩ => ⟨S8192x64x1, .i1⟩
  | .hbm, ⟨9, _⟩ => ⟨S_, .f32⟩
  | .hbm, ⟨10, _⟩ => ⟨S8192x64x1, .f32⟩
  | .hbm, ⟨11, _⟩ => ⟨S8192x64x1, .f32⟩
  | .hbm, ⟨12, _⟩ => ⟨S_, .f32⟩
  | .hbm, ⟨13, _⟩ => ⟨S8192x64x1, .f32⟩
  | .hbm, ⟨14, _⟩ => ⟨S8192x64x1, .f32⟩
  | .hbm, ⟨15, _⟩ => ⟨S8192x64x128, .f32⟩
  | .hbm, ⟨16, _⟩ => ⟨S8192x64x128, .f32⟩
  | .hbm, ⟨17, _⟩ => ⟨S8192x64x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8192x64x128, .f32⟩
  | .hbm, ⟨22, _⟩ => ⟨S8192x64x128, .f32⟩
  | .hbm, ⟨23, _⟩ => ⟨S_, .f32⟩
  | .hbm, ⟨24, _⟩ => ⟨S8192x64x128, .f32⟩
  | .hbm, ⟨25, _⟩ => ⟨S8192x64x128, .f32⟩
  | .hbm, ⟨26, _⟩ => ⟨S8192x64x128, .f32⟩
  | .hbm, ⟨27, _⟩ => ⟨S8192x64x128, .f32⟩
  | .hbm, ⟨28, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_cst_4 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]

class Facts₀ : Prop where
  shapeCasts_S8192x8192_S8192x64x128 : S8192x8192.ShapeCasts S8192x64x128
  reducesTo_S8192x64x128_S8192x64_d2 : S8192x64x128.ReducesTo [2] S8192x64
  h_S_ : 0 < S_.numel
  bcast_S8192x64_S8192x64x1_0_1 : S8192x64.BroadcastsInDim S8192x64x1 (![0, 1] : Fin 2 → Fin S8192x64x1.rank)
  bcast_S_S8192x64x1 : S_.BroadcastsInDim S8192x64x1 (![] : Fin 0 → Fin S8192x64x1.rank)
  bcast_S8192x64x1_S8192x64x128_0_1_2 : S8192x64x1.BroadcastsInDim S8192x64x128 (![0, 1, 2] : Fin 3 → Fin S8192x64x128.rank)
  bcast_S_S8192x64x128 : S_.BroadcastsInDim S8192x64x128 (![] : Fin 0 → Fin S8192x64x128.rank)
  shapeCasts_S8192x64x128_S8192x8192 : S8192x64x128.ShapeCasts S8192x8192

variable [Facts₀]

class Facts : Prop extends Facts₀ where

variable [Facts]
-- ==== Proof.QuantSpec.lean ====
/-
  The specification both programs meet. A row of the array is cut into blocks of 128 consecutive entries. For one
  block `f : Fin 128 → EReal`:
    amax f   = the largest magnitude of the block, the fold of `max` from −∞ over |f l|;
    scale a  = a / 7 when a > 0, else 1;
    quant x s = clamp (round-half-even (x / s)) to [−8, 7], times s.
  Entry (r, c) of the result is `quant` of entry (r, c) of the argument with the scale of the block that holds it:
  the 128 entries of row r from column 128 · (c / 128) on. Every operation is the extended reals' own (the float
  instance read exactly), so no law of arithmetic is used anywhere: the two programs compute this same term, entry
  by entry, and differ only in how they tile the array.
-/
import Idealize.ShloMosaic.PureOps.Ideal
import Idealize.ShloMosaic.PureOps.Ideal.Laws
import Idealize.ShloMosaic.Lib.ValueIdx

noncomputable section

namespace Cert.Quant

open Idealize.ShloMosaic Idealize.ShloMosaic.ValueIdx

/-- The largest magnitude of a block of 128 entries: the fold of `max`, from −∞, over the entries' absolute values. -/
def amax (f : Fin 128 → Ideal .f32) : Ideal .f32 :=
  (Finset.univ : Finset (Fin 128)).fold max (FloatOps.ofBits (F := Ideal) .f32 0xFF800000#32)
    (fun l => FloatOps.absf (F := Ideal) (φ := .f32) (f l))

/-- The block's scale: a seventh of its largest magnitude when that is positive, else one. -/
def scale (a : Ideal .f32) : Ideal .f32 :=
  Scalar.select (FloatOps.cmpf (F := Ideal) (φ := .f32) .ogt a (FloatOps.ofBits .f32 0x00000000#32))
    (FloatOps.divf (F := Ideal) (φ := .f32) a (FloatOps.ofBits .f32 0x40E00000#32))
    (FloatOps.ofBits (F := Ideal) .f32 0x3F800000#32)

/-- One entry quantized at scale `s`: `x / s` rounded half to even, clamped to [−8, 7], times `s`. -/
def quant (x s : Ideal .f32) : Ideal .f32 :=
  FloatOps.mulf (F := Ideal) (φ := .f32)
    (FloatOps.minimumf (FloatOps.ofBits .f32 0x40E00000#32)
      (FloatOps.maximumf (FloatOps.ofBits .f32 0xC1000000#32)
        (FloatOps.roundeven (FloatOps.divf x s)))) s

/-- Entry `l` of a block, quantized at the block's own scale. -/
def rowQuant (f : Fin 128 → Ideal .f32) (l : Fin 128) : Ideal .f32 := quant (f l) (scale (amax f))

/-- `rowQuant` depends only on the block's entries and the place in it. -/
theorem rowQuant_congr {f g : Fin 128 → Ideal .f32} {l l' : Fin 128} (hf : ∀ k, f k = g k) (hl : l = l') :
    rowQuant f l = rowQuant g l' := by
  subst hl; rw [funext hf]

/-- Column `128 · (c / 128) + l` of a row of `n` entries, `n` a multiple of 128 that the caller states as `128 * k`:
    entry `l` of the block that holds column `c`. -/
def laneIn {k : Nat} (c : Fin (128 * k)) (l : Fin 128) : Fin (128 * k) :=
  ⟨128 * (c.val / 128) + l.val, by have := c.isLt; have := l.isLt; omega⟩

/-- The place of column `c` inside its block. -/
def lane {k : Nat} (c : Fin (128 * k)) : Fin 128 := ⟨c.val % 128, Nat.mod_lt _ (by decide)⟩

/-- The result, as one function of the argument array: entry (r, c) quantized at the scale of its block. -/
def fakeQuant (X : (⟨2, ![8192, 8192]⟩ : Shape).Idx → Ideal .f32) : (⟨2, ![8192, 8192]⟩ : Shape).Idx → Ideal .f32 :=
  fun i => rowQuant (fun l => X (ix2 (i 0) (laneIn (k := 64) (i 1) l))) (lane (k := 64) (i 1))

end Cert.Quant

end
-- ==== Proof.ChunkPayload.lean ====
/-
  One chunk of the kernel's body. The body walks its [256, 8192] block in eight chunks of 1024 columns; each chunk is
  loaded, viewed as [256, 8, 128] (eight blocks of 128 entries per row), every block reduced to its largest magnitude,
  scaled, rounded, clamped, rescaled, viewed as [256, 1024] again and stored. The eight chunks' arithmetic is spelt in
  differently cut pieces, but all eight are one function `chunkFn` of the loaded chunk, and at the exact instance
  entry (r, c) of `chunkFn v` is the specification's `rowQuant` of the 128 entries of row r of `v` that share c's
  block.
-/
import proofs.«138648_j9405978378779_2_alg».proof.Proof.Gen.KernelIdeal.Skeleton
import proofs.«138648_j9405978378779_2_alg».proof.Proof.QuantSpec
import Idealize.ShloMosaic.Lib.Pipeline.Value
import Idealize.ShloMosaic.Lib.ValueIdx
import Idealize.ShloMosaic.PureOps.Ideal.Laws

noncomputable section

namespace Cert.KernelIdeal.Chunk

open Cert.KernelIdeal Cert.KernelIdeal.Gen Idealize.ShloMosaic Idealize.ShloMosaic.ValueIdx Cert.Quant

/-! ## The eight chunks' payloads are one function -/

section AnyInstance
variable {F : FTy → Type} [FloatOps F]

/-- What the body stores for a chunk it loaded as `v`. -/
def chunkFn (v : Vec F S256x1024 .f32) : FVec F S256x1024 .f32 := k0_pay1 v

theorem chunk1 (v : Vec F S256x1024 .f32) : k0_pay5 (k0_pay2 v) (k0_pay3 v) (k0_pay4 v) = chunkFn v := rfl
theorem chunk2 (v : Vec F S256x1024 .f32) : k0_pay6 v = chunkFn v := rfl
theorem chunk3 (v : Vec F S256x1024 .f32) : k0_pay8 (k0_pay7 v) = chunkFn v := rfl
theorem chunk4 (v : Vec F S256x1024 .f32) : k0_pay13 (k0_pay11 v) (k0_pay12 v) = chunkFn v := rfl
theorem chunk5 (v : Vec F S256x1024 .f32) : k0_pay14 v = chunkFn v := rfl
theorem chunk6 (v : Vec F S256x1024 .f32) :
    k0_pay19 (k0_pay15 v) (k0_pay16 v) (k0_pay17 v) (k0_pay18 (F := F)) = chunkFn v := rfl
theorem chunk7 (v : Vec F S256x1024 .f32) : k0_pay20 v = chunkFn v := rfl

end AnyInstance

/-! ## The layout steps and the reduction, each read at an index -/

/-- Column `128 · b + l` of a chunk: entry `l` of its block `b`. -/
def col (b : Fin 8) (l : Fin 128) : Fin 1024 := ⟨128 * b.val + l.val, by have := b.isLt; have := l.isLt; omega⟩

/-- The chunk viewed as [256, 8, 128]: entry (r, b, l) is entry (r, 128 b + l). -/
theorem blocksOf_apply {α : Type} (v : S256x1024.Idx → α) (r : Fin 256) (b : Fin 8) (l : Fin 128) :
    shapeCast S256x8x128 v shapeCasts_S256x1024_S256x8x128 (ix3 r b l) = v (ix2 r (col b l)) := by
  refine shapeCast_apply v _ (ix3 r b l) (ix2 r (col b l)) ?_
  rw [Shape.rowMajor_val_two, Shape.rowMajor_val_three]
  show r.val * 1024 + (128 * b.val + l.val) = (r.val * 8 + b.val) * 128 + l.val
  omega

/-- Back to [256, 1024]: entry (r, c) is entry (r, c / 128, c % 128). -/
theorem flat_apply {α : Type} (w : S256x8x128.Idx → α) (r : Fin 256) (c : Fin 1024) :
    shapeCast S256x1024 w shapeCasts_S256x8x128_S256x1024 (ix2 r c)
      = w (ix3 r ⟨c.val / 128, by have := c.isLt; omega⟩ ⟨c.val % 128, Nat.mod_lt _ (by decide)⟩) := by
  refine shapeCast_apply w _ (ix2 r c) _ ?_
  rw [Shape.rowMajor_val_two, Shape.rowMajor_val_three]
  show (r.val * 8 + c.val / 128) * 128 + c.val % 128 = r.val * 1024 + c.val
  omega

/-- The per-block values given a trailing unit axis: entry (r, b, 0) is entry (r, b). -/
theorem keep_apply {α : Type} (u : S256x8.Idx → α) (r : Fin 256) (b : Fin 8) (z : Fin 1) :
    shapeCast S256x8x1 u shapeCasts_S256x8_S256x8x1 (ix3 r b z) = u (ix2 r b) := by
  refine shapeCast_apply u _ (ix3 r b z) (ix2 r b) ?_
  rw [Shape.rowMajor_val_two, Shape.rowMajor_val_three]
  show r.val * 8 + b.val = (r.val * 8 + b.val) * 1 + z.val
  have := z.isLt; omega

/-- A per-block value spread over the block's 128 entries. -/
theorem spread_apply {α : Type} (s : S256x8x1.Idx → α) (r : Fin 256) (b : Fin 8) (l : Fin 128) :
    broadcastTo S256x8x128 s broadcasts_S256x8x1_S256x8x128 (ix3 r b l) = s (ix3 r b (0 : Fin 1)) := by
  refine broadcastTo_apply s _ (ix3 r b l) (ix3 r b (0 : Fin 1)) (fun a => ?_)
  match a with
  | ⟨0, _⟩ => rfl
  | ⟨1, _⟩ => rfl
  | ⟨2, _⟩ => rfl

/-- The largest magnitude of block (r, b): the lane reduction is the fold of `max` from −∞ over the block's entries. -/
theorem blockMax_apply (w : FVec Ideal S256x8x128 .f32) (hφ : FKind.Formats .f32)
    (hacc : (0xFF800000#32 : BitVec 32) = 0xFF800000#32) (r : Fin 256) (b : Fin 8) :
    multiReduction .maximumf [2] S256x8 (absf w) 0xFF800000#32 reduces_S256x8x128_S256x8 hφ hacc (ix2 r b)
      = (Finset.univ : Finset (Fin 128)).fold max (FloatOps.ofBits (F := Ideal) .f32 0xFF800000#32)
          (fun l => FloatOps.absf (F := Ideal) (φ := .f32) (w (ix3 r b l))) := by
  refine (Ideal.multiReduction_maximumf_single (absf w) 0xFF800000#32 reduces_S256x8x128_S256x8 hφ hacc (ix2 r b)).trans ?_
  refine congrArg (fun g => (Finset.univ : Finset (Fin 128)).fold max (FloatOps.ofBits (F := Ideal) .f32 0xFF800000#32) g) ?_
  funext l
  show FloatOps.absf (w (reduces_S256x8x128_S256x8.lift (ix2 r b) l)) = _
  refine congrArg (fun i => FloatOps.absf (F := Ideal) (φ := .f32) (w i)) (funext fun a => Fin.ext ?_)
  match a with
  | ⟨0, _⟩ => rfl
  | ⟨1, _⟩ => rfl
  | ⟨2, _⟩ => rfl

/-! ## A chunk at an index -/

/-- Entry (r, c) of what the body stores for a chunk `v`: the specification's quantized entry of the block of row r
    that holds column c. -/
theorem chunk_apply (v : Vec Ideal S256x1024 .f32) (r : Fin 256) (c : Fin 1024) :
    chunkFn (F := Ideal) v (ix2 r c)
      = rowQuant (fun l => v (ix2 r (laneIn (k := 8) c l))) (lane (k := 8) c) := by
  unfold chunkFn k0_pay1
  dsimp only
  rw [flat_apply]
  simp only [Idealize.ShloMosaic.mulf, Idealize.ShloMosaic.minimumf, Idealize.ShloMosaic.maximumf,
    Idealize.ShloMosaic.roundeven, Idealize.ShloMosaic.divf, Idealize.ShloMosaic.broadcast,
    Idealize.ShloMosaic.select, Idealize.ShloMosaic.cmpf, spread_apply, blocksOf_apply, keep_apply, blockMax_apply]
  rw [blockMax_apply]
  simp only [blocksOf_apply]
  unfold rowQuant quant scale amax
  rfl

end Cert.KernelIdeal.Chunk

end
-- ==== Proof.BlockValue.lean ====
/-
  What the kernel's body leaves in its output block. At one grid point the body holds a [256, 8192] block `x0` of the
  argument and writes the output block through eight stores, store j covering columns 1024 j … 1024 j + 1023 with
  the chunk function of the same columns of `x0`. Each of those stores is a restriction of ONE function of the block
  index — entry (r, c) quantized at the scale of the 128 entries of row r around c, which never leave c's chunk
  because 128 divides 1024 — so the eight stores together leave that function, `blockFn x0`.
-/
import proofs.«138648_j9405978378779_2_alg».proof.Proof.Gen.KernelIdeal.Frame
import proofs.«138648_j9405978378779_2_alg».proof.Proof.ChunkPayload
import Idealize.ShloMosaic.Lib.Pipeline.Value
import Idealize.ShloMosaic.Lib.Tactic

set_option maxRecDepth 16384

noncomputable section

namespace Cert.KernelIdeal.Block

open Cert.KernelIdeal Cert.KernelIdeal.Gen Cert.KernelIdeal.Chunk Idealize.ShloMosaic Idealize.ShloMosaic.TcCoe
open Idealize.ShloMosaic.ValueIdx Cert.Quant Idealize.ShloMosaic.Tactic

/-- The output block as one function of the input block: entry (r, c) quantized at the scale of its block of 128. -/
def blockFn (x0 : Vec Ideal S256x8192 .f32) : Vec Ideal S256x8192 .f32 :=
  fun y => rowQuant (fun l => x0 (ix2 (y 0) (laneIn (k := 64) (y 1) l))) (lane (k := 64) (y 1))

/-- One store of the body. The chunk function of the columns `1024 j …` of the input block, read at a chunk index,
    is `blockFn` at the block index that store puts it at: row for row, and column `1024 j + c` shares its block of
    128 with the columns `1024 j + 128 (c / 128) + l`, all inside the chunk. -/
theorem piece_apply (a1 : Memref sig .tc .vmem S256x8192 .f32) (h1 : a1.IsWhole) (x0 : Vec Ideal S256x8192 .f32)
    (off : Fin 2 → Nat) (j : Fin 8) (hoff0 : off 0 = 0) (hoff1 : off 1 = 1024 * j.val)
    (inb : ∀ a, off a + S256x1024.size a ≤ S256x8192.size a) (x : S256x1024.Idx) :
    chunkFn (F := Ideal) (a1.view.readAt (Elt Ideal) (Rect.unit (s := S256x8192) off S256x1024.size inb).toLoadRect (h1.unread x0)) x
      = blockFn x0 ((Rect.unit (s := S256x8192) off S256x1024.size inb).emb x) := by
  obtain ⟨r, cc, rfl⟩ : ∃ (r : Fin 256) (cc : Fin 1024), x = ix2 r cc := ⟨x 0, x 1, eq_ix2 x⟩
  rw [chunk_apply]
  unfold blockFn
  have hj := j.isLt
  have hc := cc.isLt
  refine rowQuant_congr (fun l => ?_) (Fin.ext ?_)
  · rw [View.readAt_eq_ld, h1.read_unread]
    show x0 _ = x0 _
    refine congrArg x0 (funext fun a => Fin.ext ?_)
    have hl := l.isLt
    match a with
    | ⟨0, _⟩ => rfl
    | ⟨1, _⟩ =>
      show off 1 + 1 * (128 * (cc.val / 128) + l.val) = 128 * ((off 1 + 1 * cc.val) / 128) + l.val
      rw [hoff1]; omega
  · show cc.val % 128 = (off 1 + 1 * cc.val) % 128
    rw [hoff1]; omega

/-- What the body's eight stores leave in the output block: `blockFn` of the input block. -/
theorem out_eq (c : Dev nD) (i : grid0.Coords) (a1 : Memref sig .tc .vmem S256x8192 .f32) (h1 : a1.IsWhole)
    (a2 : Memref sig .tc .vmem S256x8192 .f32) (h2 : a2.IsWhole) (x0 : Vec Ideal S256x8192 .f32) :
    out0_A_1 c i a1 h1 a2 h2 x0 = blockFn x0 := by
  unfold out0_A_1
  rw [View.read_writes_eq_canon _ _ _ (cover0_A_1 c i a1 h1 a2 h2 x0)]
  funext y
  refine View.canon_apply_of_pieces (blockFn x0) _ ?_ y (cover0_A_1 c i a1 h1 a2 h2 x0 y)
  unfold kernelRun0_A
  dsimp only
  sl_unfold_words
  intro p hp x
  simp only [List.mem_cons, List.mem_nil_iff, or_false] at hp
  rcases hp with rfl | rfl | rfl | rfl | rfl | rfl | rfl | rfl
  · exact (congrFun (chunk7 _) x).trans (piece_apply a1 h1 x0 _ 7 rfl rfl _ x)
  · exact (congrFun (chunk6 _) x).trans (piece_apply a1 h1 x0 _ 6 rfl rfl _ x)
  · exact (congrFun (chunk5 _) x).trans (piece_apply a1 h1 x0 _ 5 rfl rfl _ x)
  · exact (congrFun (chunk4 _) x).trans (piece_apply a1 h1 x0 _ 4 rfl rfl _ x)
  · exact (congrFun (chunk3 _) x).trans (piece_apply a1 h1 x0 _ 3 rfl rfl _ x)
  · exact (congrFun (chunk2 _) x).trans (piece_apply a1 h1 x0 _ 2 rfl rfl _ x)
  · exact (congrFun (chunk1 _) x).trans (piece_apply a1 h1 x0 _ 1 rfl rfl _ x)
  · exact piece_apply a1 h1 x0 _ 0 rfl rfl _ x

end Cert.KernelIdeal.Block

end
-- ==== Proof.KernelValue.lean ====
/-
  The kernel's result array. Grid point t works on rows 256 t … 256 t + 255, all 8192 columns: its input block and
  its output block sit at the same rows, and a block of 128 entries of a row lies wholly inside them. So what point t
  writes back — `blockFn` of its input block — is block t of ONE function of the argument array, `fakeQuant`; the 32
  blocks tile the array, hence after the run the result array is `fakeQuant` of the argument.
-/
import proofs.«138648_j9405978378779_2_alg».proof.Proof.Gen.KernelIdeal.Value
import proofs.«138648_j9405978378779_2_alg».proof.Proof.BlockValue
import Idealize.ShloMosaic.Lib.Pipeline.Value

set_option maxRecDepth 16384

noncomputable section

namespace Cert.KernelIdeal.WholeValue

open Cert.KernelIdeal Cert.KernelIdeal.Gen Cert.KernelIdeal.Block Idealize.ShloMosaic Idealize.ShloMosaic.TcCoe Idealize.SL.Sem
open Idealize.ShloMosaic.ValueIdx Cert.Quant
open Idealize.ShloMosaic.Pipeline (Dat)

variable (m : (ℓ : Loc nD τ sig) → Buf (Elt Ideal) ℓ) (ρ : Dev nD → PrngReg)

/-- The two windows' block indices, over the 32 grid points: the same row block, column block 0. -/
theorem same_rows : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 31 :=
  (by decide +kernel : ∀ t : Fin grid0.N, _)

/-- Every row block is some point's. -/
theorem every_rowBlock : ∀ q : Fin 32, ∃ t : Fin cfg0.N, win0_1.index t = ![q.val, 0] :=
  (by decide +kernel : ∀ q : Fin 32, ∃ t : Fin grid0.N, win0_1.index t = ![q.val, 0])

/-- What point `t` writes back is block `t` of `fakeQuant` of the argument array as the region finds it. -/
theorem writeback_eq (c : Dev nD) (t : Fin cfg0.N) :
    (dats m 0 c).flushed 1 t = ((cfg0.win 1).blk t).view.read (Elt Ideal) (fakeQuant (V m c main_arg0)) := by
  rw [Value.flushed1_A, out_eq]
  obtain ⟨e0, e1, e2, e3⟩ := same_rows t
  funext j
  show blockFn (iblk m c 0 t) j = fakeQuant (V m c main_arg0) (((cfg0.win 1).blk t).view.emb j)
  unfold blockFn fakeQuant
  have hj1 : (j 1).val < 8192 := (j 1).isLt
  refine rowQuant_congr (fun l => ?_) (Fin.ext ?_)
  · show V m c main_arg0 (((cfg0.win 0).blk t).view.emb (ix2 (j 0) (laneIn (k := 64) (j 1) l))) = V m c main_arg0 _
    refine congrArg (V m c main_arg0) (funext fun a => Fin.ext ?_)
    have hl := l.isLt
    match a with
    | ⟨0, _⟩ =>
      show win0_0.index t (0 : Fin 2) * 256 + 1 * (j 0).val = win0_1.index t (0 : Fin 2) * 256 + 1 * (j 0).val
      omega
    | ⟨1, _⟩ =>
      show win0_0.index t (1 : Fin 2) * 8192 + 1 * (128 * ((j 1).val / 128) + l.val)
        = 128 * ((win0_1.index t (1 : Fin 2) * 8192 + 1 * (j 1).val) / 128) + l.val
      omega
  · show (j 1).val % 128 = (win0_1.index t (1 : Fin 2) * 8192 + 1 * (j 1).val) % 128
    omega

/-- An index of the array is in point `t`'s block iff each coordinate is in the block's range on its axis. -/
theorem mem_rowBlock (t : Fin cfg0.N) (i : S8192x8192.Idx) :
    i ∈ ((cfg0.win 1).blk t).view.set ↔ ∀ a : Fin 2, win0_1.index t a * S256x8192.size a ≤ (i a).val
      ∧ (i a).val < win0_1.index t a * S256x8192.size a + S256x8192.size a := by
  show i ∈ ((View.whole main_v0).slice (win0_1.rect t)).set ↔ _
  rw [View.set_slice_whole, Rect.mem_set_unit]
  exact Iff.rfl

/-- THE RESULT ARRAY after the run: `fakeQuant` of the argument. Row r is in the block of point r / 256. -/
theorem result_eq (c : Dev nD) : (dats m 0 c).arrAt 1 cfg0.N = fakeQuant (m ((c : Thread nD τ).loc main_arg0)) := by
  rw [← V_main_arg0 m c]
  refine (dats m 0 c).arrAt_eq_of_cover 1 (fakeQuant (V m c main_arg0)) (fun t _ => writeback_eq m c t) (fun i => ?_)
  have hi0 : (i 0).val < 8192 := (i 0).isLt
  have hi1 : (i 1).val < 8192 := (i 1).isLt
  obtain ⟨t, ht⟩ := every_rowBlock ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_rowBlock]
  intro a
  match a with
  | ⟨0, _⟩ =>
    show win0_1.index t (0 : Fin 2) * 256 ≤ (i 0).val ∧ (i 0).val < win0_1.index t (0 : Fin 2) * 256 + 256
    omega
  | ⟨1, _⟩ =>
    show win0_1.index t (1 : Fin 2) * 8192 ≤ (i 1).val ∧ (i 1).val < win0_1.index t (1 : Fin 2) * 8192 + 8192
    omega

/-- The run, read: the result array at `fakeQuant` of the argument, the argument unchanged. -/
theorem run : θ_run defs (onTc (τ := τ) (main (F := Ideal))) ⟨m, fun _ => 0, ρ⟩ fun r => ∀ c : Dev nD,
      r.2.mem ((c : Thread nD τ).loc main_v0) = fakeQuant (m ((c : Thread nD τ).loc main_arg0))
      ∧ r.2.mem ((c : Thread nD τ).loc main_arg0) = m ((c : Thread nD τ).loc main_arg0) :=
  (θ_run defs _ _).mono (fun r h c => ⟨(h c).1.trans (result_eq m c), (h c).2⟩) (Value.run_blocks m ρ)

end Cert.KernelIdeal.WholeValue

end
-- ==== Proof.RefValue.lean ====
/-
  The reference computes the specification. It views the array as [8192, 64, 128] (row r, block b, entry l is column
  128 b + l), reduces each block to its largest magnitude from −∞, forms the scale, divides, rounds half to even,
  clamps to [−8, 7], multiplies by the scale and views the result as [8192, 8192] again. Read one stage at a time at
  an index, entry (r, c) is `rowQuant` of the block of row r that holds column c: the function `fakeQuant`.
-/
import proofs.«138648_j9405978378779_2_alg».proof.Proof.Gen.ReferenceIdeal.Read
import proofs.«138648_j9405978378779_2_alg».proof.Proof.QuantSpec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Quant

/-- Column `128 · b + l` of a row: entry `l` of its block `b`. -/
def colOf (b : Fin 64) (l : Fin 128) : Fin 8192 := ⟨128 * b.val + l.val, by have := b.isLt; have := l.isLt; omega⟩

/-- The array viewed as [8192, 64, 128]: entry (r, b, l) is entry (r, 128 b + l). -/
theorem blocks_apply (x0 : (⟨S8192x8192, .f32⟩ : BufTy).Contents (Elt Ideal)) (r : Fin 8192) (b : Fin 64) (l : Fin 128) :
    val_main_v0 (F := Ideal) x0 (ix3 r b l) = x0 (ix2 r (colOf b l)) := by
  rw [val_main_v0_apply]
  refine congrArg x0 (funext fun a => Fin.ext ?_)
  have hr := r.isLt; have hb := b.isLt; have hl := l.isLt
  match a with
  | ⟨0, _⟩ => show ((r.val * 64 + b.val) * 128 + l.val) / 8192 = r.val; omega
  | ⟨1, _⟩ => show ((r.val * 64 + b.val) * 128 + l.val) % 8192 = 128 * b.val + l.val; omega

/-- The reduce at (r, b): the fold of `max` from −∞ over the magnitudes of block b of row r. -/
theorem blockMax_apply (x0 : (⟨S8192x8192, .f32⟩ : BufTy).Contents (Elt Ideal)) (r : Fin 8192) (b : Fin 64) :
    val_main_v2 (F := Ideal) x0 (ix2 r b) = amax (fun l => x0 (ix2 r (colOf b l))) := by
  unfold val_main_v2
  refine (Host.reduce_eq_fold_single (FloatOps.maximumf (F := Ideal) (φ := .f32)) (val_main_v1 (F := Ideal) x0)
    (val_main_cst (F := Ideal)) reducesTo_S8192x64x128_S8192x64_d2 ⟨reducesTo_S8192x64x128_S8192x64_d2.1, by decide, reducesTo_S8192x64x128_S8192x64_d2.2⟩ h_S_ (ix2 r b)).trans ?_
  unfold amax
  refine congrArg (fun g => (Finset.univ : Finset (Fin 128)).fold max (FloatOps.ofBits (F := Ideal) .f32 0xFF800000#32) g) ?_
  funext l
  show FloatOps.absf (F := Ideal) (φ := .f32) (val_main_v0 (F := Ideal) x0 _) = _
  refine congrArg (FloatOps.absf (F := Ideal) (φ := .f32)) ?_
  refine Eq.trans (congrArg (val_main_v0 (F := Ideal) x0) (funext fun a => Fin.ext ?_)) (blocks_apply x0 r b l)
  match a with
  | ⟨0, _⟩ => rfl
  | ⟨1, _⟩ => rfl
  | ⟨2, _⟩ => rfl

/-- The scale stage at (r, b, 0): the scale of block b of row r. -/
theorem scale_apply (x0 : (⟨S8192x8192, .f32⟩ : BufTy).Contents (Elt Ideal)) (r : Fin 8192) (b : Fin 64) :
    val_main_v8 (F := Ideal) x0 (ix3 r b (0 : Fin 1)) = scale (amax (fun l' => x0 (ix2 r (colOf b l')))) := by
  have e3 : idx_main_v3 (ix3 r b (0 : Fin 1)) = ix2 r b := funext fun a => by
    match a with | ⟨0, _⟩ => rfl | ⟨1, _⟩ => rfl
  rw [val_main_v8_apply, val_main_v5_apply, val_main_v7_apply, val_main_v3_apply, e3, blockMax_apply, val_main_v4_apply,
    val_main_cst_0_apply, val_main_v6_apply, val_main_cst_1_apply, val_main_call0_v0_apply, val_main_cst_2_apply]
  rfl

/-- The last stage before the final reshape, at (r, b, l): entry l of block b of row r, quantized at the block's scale. -/
theorem stage_apply (x0 : (⟨S8192x8192, .f32⟩ : BufTy).Contents (Elt Ideal)) (r : Fin 8192) (b : Fin 64) (l : Fin 128) :
    val_main_v14 (F := Ideal) x0 (ix3 r b l) = rowQuant (fun l' => x0 (ix2 r (colOf b l'))) l := by
  have e9 : idx_main_v9 (ix3 r b l) = ix3 r b (0 : Fin 1) := funext fun a => by
    match a with | ⟨0, _⟩ => rfl | ⟨1, _⟩ => rfl | ⟨2, _⟩ => rfl
  have e13 : idx_main_v13 (ix3 r b l) = ix3 r b (0 : Fin 1) := funext fun a => by
    match a with | ⟨0, _⟩ => rfl | ⟨1, _⟩ => rfl | ⟨2, _⟩ => rfl
  rw [val_main_v14_apply, val_main_v12_apply, val_main_v13_apply, e13, scale_apply, val_main_call2_v4_apply,
    val_main_call2_v3_apply, val_main_cst_4_apply, val_main_call2_v2_apply, val_main_call2_v1_apply,
    val_main_call2_v0_apply, val_main_cst_3_apply, val_main_v11_apply, val_main_v10_apply, val_main_v9_apply, e9,
    scale_apply, blocks_apply]
  rfl

/-- THE REFERENCE'S RESULT is `fakeQuant` of its argument: the final reshape reads (r, c) at (r, c / 128, c % 128). -/
theorem ref_eq (x0 : (⟨S8192x8192, .f32⟩ : BufTy).Contents (Elt Ideal)) : val_main_v15 (F := Ideal) x0 = fakeQuant x0 := by
  funext i
  obtain ⟨r, cc, rfl⟩ : ∃ (r : Fin 8192) (cc : Fin 8192), i = ix2 r cc := ⟨i 0, i 1, eq_ix2 i⟩
  have hr := r.isLt
  have hc := cc.isLt
  have e15 : idx_main_v15 (ix2 r cc)
      = ix3 r (⟨cc.val / 128, by omega⟩ : Fin 64) (⟨cc.val % 128, Nat.mod_lt _ (by decide)⟩ : Fin 128) :=
    funext fun a => Fin.ext (by
      match a with
      | ⟨0, _⟩ => show (r.val * 8192 + cc.val) / 8192 = r.val; omega
      | ⟨1, _⟩ => show (r.val * 8192 + cc.val) / 128 % 64 = cc.val / 128; omega
      | ⟨2, _⟩ => show (r.val * 8192 + cc.val) % 128 = cc.val % 128; omega)
  rw [val_main_v15_apply, e15, stage_apply]
  rfl

end Cert.ReferenceIdeal.RefValue

end
-- ==== Proof.lean ====
/- Block-wise 4-bit fake quantization of a [8192, 8192] array, kernel against reference, over the extended reals.
   Each row is cut into 64 blocks of 128 entries; a block's scale is a seventh of its largest magnitude (one when that
   is not positive); an entry becomes round-half-even (x / scale), clamped to [−8, 7], times the scale (`Cert.Quant.fakeQuant`,
   Proof/QuantSpec.lean). The reference does this on the whole array viewed as [8192, 64, 128] (Proof/RefValue.lean).
   The kernel does it on 32 row blocks of 256 rows, each in eight chunks of 1024 columns viewed as [256, 8, 128]: a
   chunk's payload at an entry is the specification's quantized entry (Proof/ChunkPayload.lean), the eight stores of a
   grid point leave one function of the input block (Proof/BlockValue.lean), and the 32 blocks written back tile the
   result array (Proof/KernelValue.lean). Both sides apply the same exact operations in the same order to the same
   128 entries — a block of 128 never straddles a chunk or a row block — so they are equal term for term; no law of
   arithmetic and no finiteness of the input is used. The idealization rewrote nothing, so `preserves` is `True`. -/
import proofs.«138648_j9405978378779_2_alg».proof.Defs
import proofs.«138648_j9405978378779_2_alg».proof.Proof.Gen.Kernel
import proofs.«138648_j9405978378779_2_alg».proof.Proof.Gen.Kernel.Skeleton
import proofs.«138648_j9405978378779_2_alg».proof.Proof.Gen.Kernel.Launch
import proofs.«138648_j9405978378779_2_alg».proof.Proof.Gen.Kernel.Points
import proofs.«138648_j9405978378779_2_alg».proof.Proof.Gen.Kernel.Frame
import proofs.«138648_j9405978378779_2_alg».proof.Proof.Gen.KernelIdeal
import proofs.«138648_j9405978378779_2_alg».proof.Proof.Gen.KernelIdeal.Skeleton
import proofs.«138648_j9405978378779_2_alg».proof.Proof.Gen.KernelIdeal.Launch
import proofs.«138648_j9405978378779_2_alg».proof.Proof.Gen.KernelIdeal.Points
import proofs.«138648_j9405978378779_2_alg».proof.Proof.Gen.KernelIdeal.Frame
import proofs.«138648_j9405978378779_2_alg».proof.Proof.Gen.ReferenceIdeal
import proofs.«138648_j9405978378779_2_alg».proof.Proof.Gen.Pre_finite_inputs
import proofs.«138648_j9405978378779_2_alg».proof.Proof.Gen.KernelIdeal.Value
import proofs.«138648_j9405978378779_2_alg».proof.Proof.Gen.ReferenceIdeal.Run
import proofs.«138648_j9405978378779_2_alg».proof.Proof.Gen.ReferenceIdeal.Read
import Idealize.ShloMosaic.Adequacy
import Idealize.ShloMosaic.Init

import proofs.«138648_j9405978378779_2_alg».proof.Proof.KernelValue
import proofs.«138648_j9405978378779_2_alg».proof.Proof.RefValue

noncomputable section

namespace Cert.Proof

open Idealize.ShloMosaic Idealize.SL.Sem

namespace QuantClaims

/-- The word-level kernel runs and leaves its argument as it was. -/
theorem frame_k : Cert.frame_Kernel := fun m ρ _ => Cert.Kernel.Gen.frame m ρ

/-- So does the kernel read exactly. -/
theorem frame_ki : Cert.frame_KernelIdeal := fun m ρ _ => Cert.KernelIdeal.Gen.frame m ρ

/-- The reference runs and leaves its argument as it was: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its exact reading. -/
theorem preserves : Cert.preserves_Kernel_KernelIdeal := trivial

/-- From arguments that agree, the kernel's result array ends at `fakeQuant` of the argument (the 32 blocks of `fakeQuant` written
    back) and the reference's at its composed stages, which are `fakeQuant` of the same argument. -/
theorem algebraic : Cert.algebraic_KernelIdeal_ReferenceIdeal := by
  intro m ρ m' ρ' _ hagree
  refine ⟨fun c => Cert.Quant.fakeQuant (m ((c.tc : Thread Cert.KernelIdeal.nD Cert.KernelIdeal.τ).loc Cert.KernelIdeal.main_arg0)),
    Cert.KernelIdeal.WholeValue.run m ρ, ?_⟩
  refine (θ_run Cert.ReferenceIdeal.defs _ _).mono (fun _ h c => ⟨(h c).1.trans ?_, (h c).2⟩)
    (Cert.ReferenceIdeal.Value.run (F := Ideal) m' ρ')
  exact ((Cert.ReferenceIdeal.Read.val_main_v15_eq _).trans (Cert.ReferenceIdeal.RefValue.ref_eq _)).trans
    (congrArg Cert.Quant.fakeQuant (hagree c))

end QuantClaims

theorem claim : Cert.Claim :=
  ⟨Cert.Kernel.Gen.facts, Cert.KernelIdeal.Gen.facts, Cert.ReferenceIdeal.Gen.facts, Cert.Pre_finite_inputs.Gen.facts,
    QuantClaims.frame_k, QuantClaims.frame_ki, QuantClaims.frame_ri, QuantClaims.preserves, QuantClaims.algebraic⟩

end Cert.Proof

end
